-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x16 : Shape := ⟨2, ![100000, 16]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S100000x16 : S_.BroadcastsInDim S100000x16 (![] : Fin 0 → Fin S100000x16.rank)
  reducesTo_S100000x16_S_d0_1 : S100000x16.ReducesTo [0, 1] S_
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg7 : FVec F S100000x16 .f32) (main_arg8 : FVec F S3200000 .f32) (main_v33 : IVec S_ 1) : IVec S_ 1 :=
  let main_v34 : FVec F S100000x16 .f32 := Host.absf main_arg7
  let main_cst_12 : FVec F S_ .f32 := constant S_ .f32 0x7F800000#32
  let main_v35 : FVec F S100000x16 .f32 := broadcastInDim S100000x16 ![] bcast_S_S100000x16 main_cst_12
  let main_v36 : IVec S100000x16 1 := cmpf .olt main_v34 main_v35
  let main_c_13 : IVec S_ 1 := constantI S_ 1 1#1
  let main_v37 : IVec S_ 1 := (fun x v => Host.reduce IntOp.andi x v reducesTo_S100000x16_S_d0_1 h_S_) main_v36 main_c_13
  let main_v38 : IVec S_ 1 := andi main_v33 main_v37
  let main_v39 : FVec F S3200000 .f32 := Host.absf main_arg8
  let main_cst_14 : FVec F S_ .f32 := constant S_ .f32 0x7F800000#32
  let main_v40 : FVec F S3200000 .f32 := broadcastInDim S3200000 ![] bcast_S_S3200000 main_cst_14
  let main_v41 : IVec S3200000 1 := cmpf .olt main_v39 main_v40
  let main_c_15 : IVec S_ 1 := constantI S_ 1 1#1
  let main_v42 : IVec S_ 1 := (fun x v => Host.reduce IntOp.andi x v reducesTo_S3200000_S_d0 h_S_) main_v41 main_c_15
  let main_v43 : IVec S_ 1 := andi main_v38 main_v42
  main_v43

def fn_part1 {F : FTy → Type} [FloatOps F] (main_arg4 : FVec F S16 .f32) (main_arg5 : FVec F S32x16 .f32) (main_arg6 : FVec F S16 .f32) (main_arg7 : FVec F S100000x16 .f32) (main_arg8 : FVec F S3200000 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S100000x512 .f32) (main_arg1 : FVec F S512x32 .f32) (main_arg2 : FVec F S32 .f32) (main_arg3 : FVec F S32x16 .f32) (main_arg4 : FVec F S16 .f32) (main_arg5 : FVec F S32x16 .f32) (main_arg6 : FVec F S16 .f32) (main_arg7 : FVec F S100000x16 .f32) (main_arg8 : FVec F S3200000 .f32) (main_arg9 : IVec S3200000 32) (main_arg10 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_v13 main_v16
-- ==== Kernel.lean ====
abbrev S100000x512 : Shape := ⟨2, ![100000, 512]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x16 : Shape := ⟨2, ![100000, 16]⟩
abbrev S3200000 : Shape := ⟨1, ![3200000]⟩
abbrev S100000x32 : Shape := ⟨2, ![100000, 32]⟩
abbrev S5000x512 : Shape := ⟨2, ![5000, 512]⟩
abbrev S5000x32 : Shape := ⟨2, ![5000, 32]⟩
abbrev S1x32 : Shape := ⟨2, ![1, 32]⟩
abbrev S3200000x1 : Shape := ⟨2, ![3200000, 1]⟩
abbrev S_ : Shape := ⟨0, ![]⟩
abbrev S3200000x32 : Shape := ⟨2, ![3200000, 32]⟩
abbrev S32x32 : Shape := ⟨2, ![32, 32]⟩
abbrev S3200000x16 : Shape := ⟨2, ![3200000, 16]⟩
abbrev S5000x16 : Shape := ⟨2, ![5000, 16]⟩

abbrev nBuf : Space → Nat
  | .hbm => 66
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S32x16, .f32⟩
  | .hbm, ⟨6, _⟩ => ⟨S16, .f32⟩
  | .hbm, ⟨7, _⟩ => ⟨S100000x16, .f32⟩
  | .hbm, ⟨8, _⟩ => ⟨S3200000, .f32⟩
  | .hbm, ⟨9, _⟩ => ⟨S3200000, .i32⟩
  | .hbm, ⟨10, _⟩ => ⟨S3200000, .i32⟩
  | .hbm, ⟨11, _⟩ => ⟨S100000x32, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x32, .f32⟩
  | .hbm, ⟨22, _⟩ => ⟨S3200000x32, .f32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S32x32, .f32⟩
  | .hbm, ⟨29, _⟩ => ⟨S32, .f32⟩
  | .hbm, ⟨30, _⟩ => ⟨S100000x32, .f32⟩
  | .hbm, ⟨31, _⟩ => ⟨S100000x16, .f32⟩
  | .hbm, ⟨32, _⟩ => ⟨S100000x16, .f32⟩
  | .hbm, ⟨33, _⟩ => ⟨S3200000x1, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S3200000x16, .f32⟩
  | .hbm, ⟨44, _⟩ => ⟨S3200000x16, .f32⟩
  | .hbm, ⟨45, _⟩ => ⟨S_, .f32⟩
  | .hbm, ⟨46, _⟩ => ⟨S100000x16, .f32⟩
  | .hbm, ⟨47, _⟩ => ⟨S3200000x1, .i32⟩
  | .hbm, ⟨48, _⟩ => ⟨S100000x16, .f32⟩
  | .hbm, ⟨49, _⟩ => ⟨S3200000x1, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x16, .f32⟩
  | .hbm, ⟨59, _⟩ => ⟨S3200000x16, .f32⟩
  | .hbm, ⟨60, _⟩ => ⟨S3200000x16, .f32⟩
  | .hbm, ⟨61, _⟩ => ⟨S_, .f32⟩
  | .hbm, ⟨62, _⟩ => ⟨S100000x16, .f32⟩
  | .hbm, ⟨63, _⟩ => ⟨S3200000x1, .i32⟩
  | .hbm, ⟨64, _⟩ => ⟨S100000x16, .f32⟩
  | .hbm, ⟨65, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x32, .f32⟩
  | .local _ .vmem, ⟨3, _⟩ => ⟨S32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S32x32, .f32⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  concatenates_S32x16_S32x16_S32x32_d1 : Shape.Concatenates [S32x16, S32x16] S32x32 1
  concatenates_S16_S16_S32_d0 : Shape.Concatenates [S16, S16] S32 0
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32_S32 : S32.ShapeCasts S32
  slices_S100000x32_S100000x16_0_0 : S100000x32.Slices ![0, 0] S100000x16
  slices_S100000x32_S100000x16_0_16 : S100000x32.Slices ![0, 16] S100000x16
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  dot_S5000x512_S512x32_S5000x32_1_0_0_1_n_n_wf : DotDims.WF S5000x512 S512x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def dot_S5000x512_S512x32_S5000x32_1_0_0_1_n_n : DotDims S5000x512 S512x32 S5000x32 where
  lhsContracting := [1]
  rhsContracting := [0]
  lhsNonContracting := [0]
  rhsNonContracting := [1]
  lhsBatch := []
  rhsBatch := []
  wf := dot_S5000x512_S512x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x16 : Shape := ⟨2, ![100000, 16]⟩
abbrev S3200000 : Shape := ⟨1, ![3200000]⟩
abbrev S100000x32 : Shape := ⟨2, ![100000, 32]⟩
abbrev S1x32 : Shape := ⟨2, ![1, 32]⟩
abbrev S3200000x1 : Shape := ⟨2, ![3200000, 1]⟩
abbrev S_ : Shape := ⟨0, ![]⟩
abbrev S3200000x32 : Shape := ⟨2, ![3200000, 32]⟩
abbrev S1x16 : Shape := ⟨2, ![1, 16]⟩
abbrev S3200000x16 : Shape := ⟨2, ![3200000, 16]⟩

abbrev nBuf : Space → Nat
  | .hbm => 77
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S32x16, .f32⟩
  | .hbm, ⟨6, _⟩ => ⟨S16, .f32⟩
  | .hbm, ⟨7, _⟩ => ⟨S100000x16, .f32⟩
  | .hbm, ⟨8, _⟩ => ⟨S3200000, .f32⟩
  | .hbm, ⟨9, _⟩ => ⟨S3200000, .i32⟩
  | .hbm, ⟨10, _⟩ => ⟨S3200000, .i32⟩
  | .hbm, ⟨11, _⟩ => ⟨S100000x32, .f32⟩
  | .hbm, ⟨12, _⟩ => ⟨S1x32, .f32⟩
  | .hbm, ⟨13, _⟩ => ⟨S100000x32, .f32⟩
  | .hbm, ⟨14, _⟩ => ⟨S100000x32, .f32⟩
  | .hbm, ⟨15, _⟩ => ⟨S3200000x1, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x32, .f32⟩
  | .hbm, ⟨25, _⟩ => ⟨S3200000x32, .f32⟩
  | .hbm, ⟨26, _⟩ => ⟨S3200000x32, .f32⟩
  | .hbm, ⟨27, _⟩ => ⟨S_, .f32⟩
  | .hbm, ⟨28, _⟩ => ⟨S100000x32, .f32⟩
  | .hbm, ⟨29, _⟩ => ⟨S3200000x1, .i32⟩
  | .hbm, ⟨30, _⟩ => ⟨S100000x32, .f32⟩
  | .hbm, ⟨31, _⟩ => ⟨S_, .f32⟩
  | .hbm, ⟨32, _⟩ => ⟨S100000x32, .f32⟩
  | .hbm, ⟨33, _⟩ => ⟨S100000x32, .f32⟩
  | .hbm, ⟨34, _⟩ => ⟨S100000x16, .f32⟩
  | .hbm, ⟨35, _⟩ => ⟨S1x16, .f32⟩
  | .hbm, ⟨36, _⟩ => ⟨S100000x16, .f32⟩
  | .hbm, ⟨37, _⟩ => ⟨S100000x16, .f32⟩
  | .hbm, ⟨38, _⟩ => ⟨S3200000x1, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x16, .f32⟩
  | .hbm, ⟨48, _⟩ => ⟨S3200000x16, .f32⟩
  | .hbm, ⟨49, _⟩ => ⟨S3200000x16, .f32⟩
  | .hbm, ⟨50, _⟩ => ⟨S_, .f32⟩
  | .hbm, ⟨51, _⟩ => ⟨S100000x16, .f32⟩
  | .hbm, ⟨52, _⟩ => ⟨S3200000x1, .i32⟩
  | .hbm, ⟨53, _⟩ => ⟨S100000x16, .f32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S3200000x1, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x16, .f32⟩
  | .hbm, ⟨68, _⟩ => ⟨S3200000x16, .f32⟩
  | .hbm, ⟨69, _⟩ => ⟨S3200000x16, .f32⟩
  | .hbm, ⟨70, _⟩ => ⟨S_, .f32⟩
  | .hbm, ⟨71, _⟩ => ⟨S100000x16, .f32⟩
  | .hbm, ⟨72, _⟩ => ⟨S3200000x1, .i32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  dot_S100000x512_S512x32_S100000x32_1_0_0_1_n_n_wf : DotDims.WF S100000x512 S512x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel's run with its three result arrays named.  @main is five segments — the first layer's region,
  the host stretch that propagates its output along the edges and concatenates the two heads' weights, the second
  layer's region, the host stretch that splits its output into the two heads and propagates each, and the
  reparameterization's region.  Every weakly fair execution runs them in order and ends with every unscoped buffer at
  the contents the last boundary names; here the three results `z`, `mu`, `logstd` are read off that boundary beside
  the eleven arguments, which end as launched.
-/
import proofs.«134589_j44633300140358_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with `z`, `mu` and `logstd` at the last
    boundary's contents and the arguments as launched. -/
theorem run_named : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_v31) = W5 m ρ c (Proc.devRef .tc main_v31)
      ∧ r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       h c _ (mem_uc main_v31 (by decide)),
       h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Run

end
-- ==== Proof.Spec.lean ====
/-
  The graph layer's pieces, named once.  Both programs compute, on arrays over the extended reals,

      support0 = x · W1 + b1                      (100000 × 32)
      h        = max (A ⋆ support0) 0             (100000 × 32)
      mu       = A ⋆ (h · Wmu + bmu)              (100000 × 16)
      logstd   = A ⋆ (h · Wls + bls)              (100000 × 16)
      z        = mu + eps · exp logstd            (100000 × 16)

  where `A ⋆ s` is the sparse propagation of a dense array `s` along the edge list (val, row, col): row `col e` of
  `s` is gathered for every edge `e`, scaled by `val e`, and added into row `row e` of an array of zeros.  The
  propagation is the same chain of host operations in both programs and is never opened here: it is carried as one
  function (`prop32` over 32 columns, `prop16` over 16) applied to whatever dense array reaches it, so the two
  programs agree as soon as the dense arrays going in agree.  The dense steps are stated in the reference's spelling
  (`dense16`, `relu32`); the reference's own stages (its generated stage functions `val_main_vN`) are these
  functions composed, by unfolding definitions.
-/
import proofs.«134589_j44633300140358_2_alg».proof.Proof.Gen.ReferenceIdeal.Read

noncomputable section

namespace Cert.Gcn

open Cert.ReferenceIdeal Cert.ReferenceIdeal.Gen Cert.ReferenceIdeal.Read Idealize.ShloMosaic Idealize.ShloMosaic.TcCoe Idealize.SL.Sem

variable {F : FTy → Type} [FloatOps F]

/-- `A ⋆ s` over 32 columns: gather row `col e` of `s` (a negative index wrapped once by the row count), scale it
    by `val e`, add it into row `row e` of zeros. -/
def prop32 (val : (⟨S3200000, .f32⟩ : BufTy).Contents (Elt F)) (row col : (⟨S3200000, .i32⟩ : BufTy).Contents (Elt F))
    (s : (⟨S100000x32, .f32⟩ : BufTy).Contents (Elt F)) : (⟨S100000x32, .f32⟩ : BufTy).Contents (Elt F) :=
  Host.scatterAdd scatter_S100000x32_S3200000x1_S3200000x32_1_0_0_1 (val_main_v14 (F := F)) (val_main_v15 (F := F) row)
    (mulf (val_main_v12 (F := F) val)
      (Host.gather gather_S100000x32_S3200000x1_S3200000x32_1_0_n_n_0_1_132 s (val_main_v10 (F := F) col)))

/-- `A ⋆ s` over 16 columns. -/
def prop16 (val : (⟨S3200000, .f32⟩ : BufTy).Contents (Elt F)) (row col : (⟨S3200000, .i32⟩ : BufTy).Contents (Elt F))
    (s : (⟨S100000x16, .f32⟩ : BufTy).Contents (Elt F)) : (⟨S100000x16, .f32⟩ : BufTy).Contents (Elt F) :=
  Host.scatterAdd scatter_S100000x16_S3200000x1_S3200000x16_1_0_0_1 (val_main_v32 (F := F)) (val_main_v33 (F := F) row)
    (mulf (val_main_v30 (F := F) val)
      (Host.gather gather_S100000x16_S3200000x1_S3200000x16_1_0_n_n_0_1_116 s (val_main_v28 (F := F) col)))

/-- `max h 0`, entry by entry. -/
def relu32 (h : (⟨S100000x32, .f32⟩ : BufTy).Contents (Elt F)) : (⟨S100000x32, .f32⟩ : BufTy).Contents (Elt F) :=
  maximumf h (val_main_call0_v0 (F := F))

/-- `h · W + b` for a 32 × 16 matrix `W` and a bias `b` laid along every row. -/
def dense16 (h : (⟨S100000x32, .f32⟩ : BufTy).Contents (Elt F)) (w : (⟨S32x16, .f32⟩ : BufTy).Contents (Elt F))
    (b : (⟨S16, .f32⟩ : BufTy).Contents (Elt F)) : (⟨S100000x16, .f32⟩ : BufTy).Contents (Elt F) :=
  addf (Host.dotGeneral dot_S100000x32_S32x16_S100000x16_1_0_0_1_n_n none h w) (val_main_v20 (F := F) b)

/-- The hidden layer `max (A ⋆ (x · W1 + b1)) 0`. -/
def hidden (x0 : (⟨S100000x512, .f32⟩ : BufTy).Contents (Elt F)) (x1 : (⟨S512x32, .f32⟩ : BufTy).Contents (Elt F))
    (x2 : (⟨S32, .f32⟩ : BufTy).Contents (Elt F)) (x8 : (⟨S3200000, .f32⟩ : BufTy).Contents (Elt F))
    (x9 x10 : (⟨S3200000, .i32⟩ : BufTy).Contents (Elt F)) : (⟨S100000x32, .f32⟩ : BufTy).Contents (Elt F) :=
  relu32 (prop32 x8 x9 x10 (val_main_v3 (F := F) x0 x1 x2))

/-- The reference's `mu` is `A ⋆ (h · Wmu + bmu)`. -/
theorem ref_mu (x0 : (⟨S100000x512, .f32⟩ : BufTy).Contents (Elt F)) (x1 : (⟨S512x32, .f32⟩ : BufTy).Contents (Elt F))
    (x2 : (⟨S32, .f32⟩ : BufTy).Contents (Elt F)) (x3 : (⟨S32x16, .f32⟩ : BufTy).Contents (Elt F)) (x4 : (⟨S16, .f32⟩ : BufTy).Contents (Elt F))
    (x8 : (⟨S3200000, .f32⟩ : BufTy).Contents (Elt F)) (x9 x10 : (⟨S3200000, .i32⟩ : BufTy).Contents (Elt F)) :
    val_main_v34 (F := F) x0 x1 x2 x3 x4 x8 x9 x10 = prop16 x8 x9 x10 (dense16 (hidden x0 x1 x2 x8 x9 x10) x3 x4) := rfl

/-- The reference's `logstd` is `A ⋆ (h · Wls + bls)`. -/
theorem ref_ls (x0 : (⟨S100000x512, .f32⟩ : BufTy).Contents (Elt F)) (x1 : (⟨S512x32, .f32⟩ : BufTy).Contents (Elt F))
    (x2 : (⟨S32, .f32⟩ : BufTy).Contents (Elt F)) (x5 : (⟨S32x16, .f32⟩ : BufTy).Contents (Elt F)) (x6 : (⟨S16, .f32⟩ : BufTy).Contents (Elt F))
    (x8 : (⟨S3200000, .f32⟩ : BufTy).Contents (Elt F)) (x9 x10 : (⟨S3200000, .i32⟩ : BufTy).Contents (Elt F)) :
    val_main_v51 (F := F) x0 x1 x2 x5 x6 x8 x9 x10 = prop16 x8 x9 x10 (dense16 (hidden x0 x1 x2 x8 x9 x10) x5 x6) := rfl

/-- The reference's `z` is `mu + eps · exp logstd`. -/
theorem ref_z (x0 : (⟨S100000x512, .f32⟩ : BufTy).Contents (Elt F)) (x1 : (⟨S512x32, .f32⟩ : BufTy).Contents (Elt F))
    (x2 : (⟨S32, .f32⟩ : BufTy).Contents (Elt F)) (x3 : (⟨S32x16, .f32⟩ : BufTy).Contents (Elt F)) (x4 : (⟨S16, .f32⟩ : BufTy).Contents (Elt F))
    (x5 : (⟨S32x16, .f32⟩ : BufTy).Contents (Elt F)) (x6 : (⟨S16, .f32⟩ : BufTy).Contents (Elt F)) (x7 : (⟨S100000x16, .f32⟩ : BufTy).Contents (Elt F))
    (x8 : (⟨S3200000, .f32⟩ : BufTy).Contents (Elt F)) (x9 x10 : (⟨S3200000, .i32⟩ : BufTy).Contents (Elt F)) :
    val_main_v54 (F := F) x0 x1 x2 x3 x4 x5 x6 x7 x8 x9 x10
      = addf (val_main_v34 (F := F) x0 x1 x2 x3 x4 x8 x9 x10) (mulf x7 (Host.exp (val_main_v51 (F := F) x0 x1 x2 x5 x6 x8 x9 x10))) := rfl

end Cert.Gcn

end
-- ==== Proof.HostWalk.lean ====
/-
  The two host stretches between the regions, read over ANY contents `W` of the buffers when the stretch begins.
  The first propagates the first layer's output along the edges (`A ⋆ ·` over 32 columns) and lays the two heads'
  weights and biases side by side; the second cuts the second layer's output into its two heads (columns 0–15 and
  16–31) and propagates each (`A ⋆ ·` over 16 columns).  Neither writes an argument array.
-/
import proofs.«134589_j44633300140358_2_alg».proof.Proof.Gen.KernelIdeal.Launch
import proofs.«134589_j44633300140358_2_alg».proof.Proof.Spec
import Idealize.ShloMosaic.Lib.StableHlo.Run

noncomputable section

open Idealize.ShloMosaic Idealize.ShloMosaic.TcCoe Idealize.SL.Sem Idealize.ShloMosaic.StableHlo

namespace Cert.Gcn.Host

open Cert.KernelIdeal Cert.KernelIdeal.Gen

variable {F : FTy → Type} [FloatOps F]

/-! ## The first stretch -/

/-- The second layer's input is `A ⋆ (first layer's output)`. -/
theorem stretch1_h (W : Valuation τ sig (Elt F)) :
    StableHlo.after hostOps1 W (Proc.devRef .tc main_v13)
      = Cert.Gcn.prop32 (F := F) (W (Proc.devRef .tc main_arg8)) (W (Proc.devRef .tc main_arg9)) (W (Proc.devRef .tc main_arg10))
          (W (Proc.devRef .tc main_v0)) := by
  after_results_simp
  rfl

/-- The second layer's weight array is `[Wmu | Wls]`. -/
theorem stretch1_w (W : Valuation τ sig (Elt F)) :
    StableHlo.after hostOps1 W (Proc.devRef .tc main_v14)
      = concatenate S32x32 1 [⟨S32x16, W (Proc.devRef .tc main_arg3)⟩, ⟨S32x16, W (Proc.devRef .tc main_arg5)⟩] concatenates_S32x16_S32x16_S32x32_d1 := by
  after_results

/-- The second layer's bias array is `[bmu | bls]`. -/
theorem stretch1_b (W : Valuation τ sig (Elt F)) :
    StableHlo.after hostOps1 W (Proc.devRef .tc main_v15)
      = concatenate S32 0 [⟨S16, W (Proc.devRef .tc main_arg4)⟩, ⟨S16, W (Proc.devRef .tc main_arg6)⟩] concatenates_S16_S16_S32_d0 := by
  after_results

theorem stretch1_arg3 (W : Valuation τ sig (Elt F)) :
    StableHlo.after hostOps1 W (Proc.devRef .tc main_arg3) = W (Proc.devRef .tc main_arg3) := by
  after_results_simp
theorem stretch1_arg4 (W : Valuation τ sig (Elt F)) :
    StableHlo.after hostOps1 W (Proc.devRef .tc main_arg4) = W (Proc.devRef .tc main_arg4) := by
  after_results_simp
theorem stretch1_arg5 (W : Valuation τ sig (Elt F)) :
    StableHlo.after hostOps1 W (Proc.devRef .tc main_arg5) = W (Proc.devRef .tc main_arg5) := by
  after_results_simp
theorem stretch1_arg6 (W : Valuation τ sig (Elt F)) :
    StableHlo.after hostOps1 W (Proc.devRef .tc main_arg6) = W (Proc.devRef .tc main_arg6) := by
  after_results_simp
theorem stretch1_arg7 (W : Valuation τ sig (Elt F)) :
    StableHlo.after hostOps1 W (Proc.devRef .tc main_arg7) = W (Proc.devRef .tc main_arg7) := by
  after_results_simp
theorem stretch1_arg8 (W : Valuation τ sig (Elt F)) :
    StableHlo.after hostOps1 W (Proc.devRef .tc main_arg8) = W (Proc.devRef .tc main_arg8) := by
  after_results_simp
theorem stretch1_arg9 (W : Valuation τ sig (Elt F)) :
    StableHlo.after hostOps1 W (Proc.devRef .tc main_arg9) = W (Proc.devRef .tc main_arg9) := by
  after_results_simp
theorem stretch1_arg10 (W : Valuation τ sig (Elt F)) :
    StableHlo.after hostOps1 W (Proc.devRef .tc main_arg10) = W (Proc.devRef .tc main_arg10) := by
  after_results_simp

/-! ## The second stretch -/

/-- `mu` is `A ⋆ (columns 0–15 of the second layer's output)`. -/
theorem stretch2_mu (W : Valuation τ sig (Elt F)) :
    StableHlo.after hostOps2 W (Proc.devRef .tc main_v31)
      = Cert.Gcn.prop16 (F := F) (W (Proc.devRef .tc main_arg8)) (W (Proc.devRef .tc main_arg9)) (W (Proc.devRef .tc main_arg10))
          (extractStridedSlice S100000x16 ![0, 0] (W (Proc.devRef .tc main_v16)) slices_S100000x32_S100000x16_0_0) := by
  after_results_simp
  rfl

/-- `logstd` is `A ⋆ (columns 16–31 of the second layer's output)`. -/
theorem stretch2_ls (W : Valuation τ sig (Elt F)) :
    StableHlo.after hostOps2 W (Proc.devRef .tc main_v44)
      = Cert.Gcn.prop16 (F := F) (W (Proc.devRef .tc main_arg8)) (W (Proc.devRef .tc main_arg9)) (W (Proc.devRef .tc main_arg10))
          (extractStridedSlice S100000x16 ![0, 16] (W (Proc.devRef .tc main_v16)) slices_S100000x32_S100000x16_0_16) := by
  after_results_simp
  rfl

theorem stretch2_arg7 (W : Valuation τ sig (Elt F)) :
    StableHlo.after hostOps2 W (Proc.devRef .tc main_arg7) = W (Proc.devRef .tc main_arg7) := by
  after_results_simp
theorem stretch2_arg8 (W : Valuation τ sig (Elt F)) :
    StableHlo.after hostOps2 W (Proc.devRef .tc main_arg8) = W (Proc.devRef .tc main_arg8) := by
  after_results_simp
theorem stretch2_arg9 (W : Valuation τ sig (Elt F)) :
    StableHlo.after hostOps2 W (Proc.devRef .tc main_arg9) = W (Proc.devRef .tc main_arg9) := by
  after_results_simp
theorem stretch2_arg10 (W : Valuation τ sig (Elt F)) :
    StableHlo.after hostOps2 W (Proc.devRef .tc main_arg10) = W (Proc.devRef .tc main_arg10) := by
  after_results_simp

end Cert.Gcn.Host

end
-- ==== Proof.Region0.lean ====
/-
  The first layer's region.  Row tile `t` (of twenty) holds rows 5000 t … 5000 t + 4999 of `x`; the body multiplies the
  tile by the whole of `W1` and adds `b1` along every row, so entry `(p, q)` of what it stores is
  `∑ k, x (5000 t + p, k) · W1 (k, q) + b1 q` — on the extended reals the change of float format before the product is
  the identity and the product into a zero accumulator is the plain finite sum.  That is entry `(5000 t + p, q)` of the
  reference's `x · W1 + b1`, and the tiles cover the array.
-/
import proofs.«134589_j44633300140358_2_alg».proof.Proof.Gen.KernelIdeal.Frame
import proofs.«134589_j44633300140358_2_alg».proof.Proof.Gen.ReferenceIdeal.Read
import proofs.«134589_j44633300140358_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.Gcn.Region0

open Cert.KernelIdeal Cert.KernelIdeal.Gen

open Idealize.ShloMosaic.ValueIdx
open Idealize.ShloMosaic.Pipeline (Dat)

/-- The zero offsets of a whole-tile access, as the constant function. -/
theorem zeros2 : (![0, 0] : Fin 2 → Nat) = fun _ => 0 := funext fun a => by fin_cases a <;> rfl
/-- The same on one axis. -/
theorem zeros1 : (![0] : Fin 1 → Nat) = fun _ => 0 := funext fun a => by fin_cases a <;> rfl

/-- The bias row laid over the tile: entry `(p, q)` of the broadcast of the reshaped bias is `b q`. -/
theorem bias_apply (x2 : Vec Ideal S32 .f32) (p : Fin 5000) (q : Fin 32) :
    broadcastTo S5000x32 (shapeCast S1x32 x2 shapeCasts_S32_S1x32) broadcasts_S1x32_S5000x32 (ix2 p q) = x2 (ix1 q) := by
  refine (broadcastTo_apply _ broadcasts_S1x32_S5000x32 (ix2 p q) (ix2 (⟨0, Nat.one_pos⟩ : Fin 1) q) ?_).trans ?_
  · intro a
    match a with
    | ⟨0, _⟩ => show (0 : Nat) = if (1 : Nat) = 1 then 0 else _; rw [if_pos rfl]
    | ⟨1, _⟩ => show q.val = if (32 : Nat) = 1 then 0 else _; rw [if_neg (by decide)]; rfl
  · refine shapeCast_apply x2 shapeCasts_S32_S1x32 _ (ix1 q) ?_
    rw [Shape.rowMajor_val_one, Shape.rowMajor_val_two]
    show q.val = 0 * _ + q.val
    omega

/-- The left operand of the tile's product is read at the output's row … -/
theorem lhs_row (i : S5000x32.Idx) (r : dot_S5000x512_S512x32_S5000x32_1_0_0_1_n_n.contr.Idx) :
    (dot_S5000x512_S512x32_S5000x32_1_0_0_1_n_n.lhsIdx i r 0).val = (i 0).val := by
  unfold DotDims.lhsIdx
  rw [dif_neg (show ¬(0 : Fin S5000x512.rank) ∈ dot_S5000x512_S512x32_S5000x32_1_0_0_1_n_n.lhsBatch by decide), dif_pos (show (0 : Fin S5000x512.rank) ∈ dot_S5000x512_S512x32_S5000x32_1_0_0_1_n_n.lhsNonContracting by decide)]
  rfl
/-- … and the right operand at the output's column. -/
theorem rhs_col (i : S5000x32.Idx) (r : dot_S5000x512_S512x32_S5000x32_1_0_0_1_n_n.contr.Idx) :
    (dot_S5000x512_S512x32_S5000x32_1_0_0_1_n_n.rhsIdx i r 1).val = (i 1).val := by
  unfold DotDims.rhsIdx
  rw [dif_neg (show ¬(1 : Fin S512x32.rank) ∈ dot_S5000x512_S512x32_S5000x32_1_0_0_1_n_n.rhsBatch by decide), dif_pos (show (1 : Fin S512x32.rank) ∈ dot_S5000x512_S512x32_S5000x32_1_0_0_1_n_n.rhsNonContracting by decide)]
  rfl

/-- One entry of the tile the body stores: row `p` of the row tile against column `q` of the weights, plus the bias. -/
theorem pay_apply (x0 : Vec Ideal S5000x512 .f32) (x1 : Vec Ideal S512x32 .f32) (x2 : Vec Ideal S32 .f32)
    (p : Fin 5000) (q : Fin 32) :
    k0_pay1 (F := Ideal) x0 x1 x2 (ix2 p q) = (∑ k : Fin 512, x0 (ix2 p k) * x1 (ix2 k q)) + x2 (ix1 q) := by
  unfold k0_pay1
  show (matmul (F := Ideal) dot_S5000x512_S512x32_S5000x32_1_0_0_1_n_n none (truncf .bf16 x0 bitsLt_bf16_f32) (truncf .bf16 x1 bitsLt_bf16_f32) (constant (F := Ideal) S5000x32 .f32 0x00000000#32) (ix2 p q)) + (broadcastTo S5000x32 (shapeCast S1x32 x2 shapeCasts_S32_S1x32) broadcasts_S1x32_S5000x32 (ix2 p q)) = _
  rw [bias_apply]
  congr 1
  simp only [matmul]
  rw [Ideal.matmul_constant_zero_apply, ← Equiv.sum_comp (contrEquiv1 dot_S5000x512_S512x32_S5000x32_1_0_0_1_n_n 512 rfl rfl).symm]
  refine Finset.sum_congr rfl fun k _ => ?_
  have hk := contrEquiv1_symm_val dot_S5000x512_S512x32_S5000x32_1_0_0_1_n_n 512 rfl rfl k
  have el : dot_S5000x512_S512x32_S5000x32_1_0_0_1_n_n.lhsIdx (ix2 p q) ((contrEquiv1 dot_S5000x512_S512x32_S5000x32_1_0_0_1_n_n 512 rfl rfl).symm k) = ix2 p k := funext fun a => Fin.ext (by
    match a with
    | ⟨0, _⟩ => exact lhs_row _ _
    | ⟨1, _⟩ => exact (dot_S5000x512_S512x32_S5000x32_1_0_0_1_n_n.lhsIdx_val_of_single rfl (ix2 p q) _).trans hk)
  have er : dot_S5000x512_S512x32_S5000x32_1_0_0_1_n_n.rhsIdx (ix2 p q) ((contrEquiv1 dot_S5000x512_S512x32_S5000x32_1_0_0_1_n_n 512 rfl rfl).symm k) = ix2 k q := funext fun a => Fin.ext (by
    match a with
    | ⟨0, _⟩ => exact (dot_S5000x512_S512x32_S5000x32_1_0_0_1_n_n.rhsIdx_val_of_single rfl (ix2 p q) _).trans hk
    | ⟨1, _⟩ => exact rhs_col _ _)
  rw [el, er]
  rfl

/-- The reference's first layer at an entry: the same finite sum plus the bias. -/
theorem ref_apply (X0 : (⟨S100000x512, .f32⟩ : BufTy).Contents (Elt Ideal)) (X1 : (⟨S512x32, .f32⟩ : BufTy).Contents (Elt Ideal))
    (X2 : (⟨S32, .f32⟩ : BufTy).Contents (Elt Ideal)) (i : S100000x32.Idx) :
    Cert.ReferenceIdeal.Read.val_main_v3 (F := Ideal) X0 X1 X2 i
      = (∑ k : Fin 512, X0 (ix2 (i 0) k) * X1 (ix2 k (i 1))) + X2 (ix1 (i 1)) := by
  rw [Cert.ReferenceIdeal.Read.val_main_v3_apply, Cert.ReferenceIdeal.Read.val_main_v0_apply,
    Cert.ReferenceIdeal.Read.val_main_v2_apply, Cert.ReferenceIdeal.Read.val_main_v1_apply]
  show (∑ k : Fin 512, X0 (Cert.ReferenceIdeal.Read.lidx_main_v0 i k) * X1 (Cert.ReferenceIdeal.Read.ridx_main_v0 i k)) + X2 _ = _
  congr 1
  · refine Finset.sum_congr rfl fun k _ => ?_
    congr 2
    · funext a; match a with | ⟨0, _⟩ => rfl | ⟨1, _⟩ => rfl
    · funext a; match a with | ⟨0, _⟩ => rfl | ⟨1, _⟩ => rfl
  · congr 1
    funext a; match a with | ⟨0, _⟩ => rfl

/-- The block index maps, decided over the twenty points: the row tile of `x` moves with the output's, on the row
    axis both are the point itself, and every other block index is zero. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- What row tile `t` writes back is block `t` of the reference's first layer `x · W1 + b1` of the arrays as the
    region finds them: entry `(p, q)` of the tile is row `5000 t + p` of `x` against column `q` of `W1`, plus `b1 q`. -/
theorem flushed_eq (V : (c : Dev nD) → (b : Ref sig .tc) → Buf (Elt Ideal) ((c : Thread nD τ).loc b)) (c : Dev nD) (t : Fin cfg0.N) :
    (dat0 V c).flushed 3 t = ((cfg0.win 3).blk t).view.read (Elt Ideal)
      (Cert.ReferenceIdeal.Read.val_main_v3 (F := Ideal) (V c main_arg0) (V c main_arg1) (V c main_arg2)) := by
  show (cfg0.win 3).cut (grid0.coords t) ((dat0 V c).after 3 t) = _
  rw [after0_3]
  unfold out0_3
  rw [View.canon_unit_zero zeros2]
  simp only [View.ld_unit_zero (S := S5000x512) zeros2, View.ld_unit_zero (S := S512x32) zeros2, View.ld_unit_zero (S := S32) zeros1]
  obtain ⟨e00, e01, e10, e11, e20, e30, e31⟩ := idx_facts t
  funext j
  show k0_pay1 (F := Ideal) (iblk0 V c 0 t) (iblk0 V c 1 t) (iblk0 V c 2 t) j
    = Cert.ReferenceIdeal.Read.val_main_v3 (F := Ideal) (V c main_arg0) (V c main_arg1) (V c main_arg2) (((cfg0.win 3).blk t).view.emb j)
  obtain ⟨p, q, rfl⟩ : ∃ (p : Fin 5000) (q : Fin 32), j = ix2 p q := ⟨j 0, j 1, eq_ix2 j⟩
  refine (pay_apply _ _ _ p q).trans ?_
  rw [ref_apply]
  -- each input block read at an entry is its array read at the entry's place in the array
  have h0 : ∀ k : Fin 512, iblk0 V c 0 t (ix2 p k) = V c main_arg0 (ix2 ((((cfg0.win 3).blk t).view.emb (ix2 p q)) 0) k) := by
    intro k
    show V c main_arg0 (((cfg0.win 0).blk t).view.emb (ix2 p k)) = _
    congr 1
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 512 + 1 * k.val = k.val; omega
  have h1 : ∀ k : Fin 512, iblk0 V c 1 t (ix2 k q) = V c main_arg1 (ix2 k ((((cfg0.win 3).blk t).view.emb (ix2 p q)) 1)) := by
    intro k
    show V c main_arg1 (((cfg0.win 1).blk t).view.emb (ix2 k q)) = _
    congr 1
    funext a; apply Fin.ext
    match a with
    | ⟨0, _⟩ => show win0_1.index t (0 : Fin 2) * 512 + 1 * k.val = k.val; omega
    | ⟨1, _⟩ => show win0_1.index t (1 : Fin 2) * 32 + 1 * q.val = win0_3.index t (1 : Fin 2) * 32 + 1 * q.val; omega
  have h2 : iblk0 V c 2 t (ix1 q) = V c main_arg2 (ix1 ((((cfg0.win 3).blk t).view.emb (ix2 p q)) 1)) := by
    show V c main_arg2 (((cfg0.win 2).blk t).view.emb (ix1 q)) = _
    congr 1
    funext a; apply Fin.ext
    match a with
    | ⟨0, _⟩ => show win0_2.index t (0 : Fin 1) * 32 + 1 * q.val = win0_3.index t (1 : Fin 2) * 32 + 1 * q.val; omega
  rw [h2]
  congr 1
  exact Finset.sum_congr rfl fun k _ => by rw [h0 k, h1 k]

/-- An entry of the output array is in row tile `t`'s block iff each coordinate is in the block's range on its axis. -/
theorem mem_blk (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v0).slice (win0_3.rect t)).set ↔ _
  rw [View.set_slice_whole, Rect.mem_set_unit]
  exact Iff.rfl

/-- The twenty row tiles cover the array: row `r` is in tile `r / 5000`. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have ht : (i 0).val / 5000 < cfg0.N := by show (i 0).val / 5000 < 20; omega
  refine ⟨⟨(i 0).val / 5000, ht⟩, flush0_3 _, ?_⟩
  obtain ⟨e00, e01, e10, e11, e20, e30, e31⟩ := idx_facts ⟨(i 0).val / 5000, ht⟩
  have e30' : win0_3.index ⟨(i 0).val / 5000, ht⟩ (0 : Fin 2) = (i 0).val / 5000 := e30
  rw [mem_blk]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 32 ≤ (i 1).val ∧ (i 1).val < win0_3.index ⟨(i 0).val / 5000, ht⟩ (1 : Fin 2) * 32 + 32; omega

/-- The first layer's array after its region: every row tile `t` writes rows `5000 t … 5000 t + 4999` of
    `x · W1 + b1`, and the twenty tiles cover the array. -/
theorem final0 (V : (c : Dev nD) → (b : Ref sig .tc) → Buf (Elt Ideal) ((c : Thread nD τ).loc b)) (c : Dev nD) :
    (dat0 V c).arrAt 3 cfg0.N
      = Cert.ReferenceIdeal.Read.val_main_v3 (F := Ideal) (V c main_arg0) (V c main_arg1) (V c main_arg2) := by
  exact (dat0 V c).arrAt_eq_of_cover 3 _ (fun t _ => flushed_eq V c t) cover

end Cert.Gcn.Region0

end
-- ==== Proof.Region1.lean ====
/-
  The second layer's region.  Row tile `t` (of twenty) holds rows 5000 t … 5000 t + 4999 of `h`; the body replaces the
  negative entries by zero, multiplies the tile by the whole 32 × 32 weight array and adds the 32-entry bias along
  every row: entry `(p, q)` of what it stores is `∑ k, max (h (5000 t + p, k)) 0 · W (k, q) + b q`, and the tiles cover
  the array.  When the weight array is `[Wmu | Wls]` and the bias `[bmu | bls]`, column `q < 16` of that array reads
  `Wmu`'s column `q` and `bmu q`, and column `q + 16` reads `Wls`'s column `q` and `bls q`: the two halves of the
  array are the reference's two dense steps on `max h 0`, sum by sum.
-/
import proofs.«134589_j44633300140358_2_alg».proof.Proof.Gen.KernelIdeal.Frame
import proofs.«134589_j44633300140358_2_alg».proof.Proof.Gen.ReferenceIdeal.Read
import proofs.«134589_j44633300140358_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.Gcn.Region1

open Cert.KernelIdeal Cert.KernelIdeal.Gen

open Idealize.ShloMosaic.ValueIdx

/-- The contraction record of the region's product, named shortly. -/
abbrev rowsTimesW := dot_S5000x32_S32x32_S5000x32_1_0_0_1_n_n

theorem lhs_row (j : S5000x32.Idx) (qq : rowsTimesW.contr.Idx) : (rowsTimesW.lhsIdx j qq 0).val = (j 0).val := by
  unfold DotDims.lhsIdx
  rw [dif_neg (show ¬(0 : Fin S5000x32.rank) ∈ rowsTimesW.lhsBatch by decide), dif_pos (show (0 : Fin S5000x32.rank) ∈ rowsTimesW.lhsNonContracting by decide)]
  rfl
theorem lhs_col (j : S5000x32.Idx) (qq : rowsTimesW.contr.Idx) : (rowsTimesW.lhsIdx j qq 1).val = (qq ⟨0, by decide⟩).val :=
  rowsTimesW.lhsIdx_val_of_single rfl j qq
theorem rhs_row (j : S5000x32.Idx) (qq : rowsTimesW.contr.Idx) : (rowsTimesW.rhsIdx j qq 0).val = (qq ⟨0, by decide⟩).val :=
  rowsTimesW.rhsIdx_val_of_single rfl j qq
theorem rhs_col (j : S5000x32.Idx) (qq : rowsTimesW.contr.Idx) : (rowsTimesW.rhsIdx j qq 1).val = (j 1).val := by
  unfold DotDims.rhsIdx
  rw [dif_neg (show ¬(1 : Fin S32x32.rank) ∈ rowsTimesW.rhsBatch by decide), dif_pos (show (1 : Fin S32x32.rank) ∈ rowsTimesW.rhsNonContracting by decide)]
  rfl

/-- The body's arithmetic at row p, column q of a block: the row of max(x0, 0) times column q of x1, plus x2 at q. -/
theorem pay_apply (x0 : Vec Ideal S5000x32 .f32) (x1 : Vec Ideal S32x32 .f32) (x2 : Vec Ideal S32 .f32)
    (p : Fin 5000) (q : Fin 32) :
    k1_pay1 (F := Ideal) x0 x1 x2 (ix2 p q)
      = (∑ k : Fin 32, max (x0 (ix2 p k)) (Ideal.ofBits .f32 0x00000000#32) * x1 (ix2 k q)) + x2 (ix1 q) := by
  unfold k1_pay1
  simp only [shapeCast_self]
  rw [addf_apply]
  refine congrArg₂ (· + ·) ?_ ?_
  · simp only [matmul]
    rw [Ideal.matmul_constant_zero_apply, ← Equiv.sum_comp (contrEquiv1 rowsTimesW 32 rfl rfl).symm]
    refine Finset.sum_congr rfl fun k _ => ?_
    have hk := contrEquiv1_symm_val rowsTimesW 32 rfl rfl k
    have el : rowsTimesW.lhsIdx (ix2 p q) ((contrEquiv1 rowsTimesW 32 rfl rfl).symm k) = ix2 p k := funext fun a => Fin.ext (by
      match a with
      | ⟨0, _⟩ => exact lhs_row _ _
      | ⟨1, _⟩ => exact (lhs_col _ _).trans hk)
    have er : rowsTimesW.rhsIdx (ix2 p q) ((contrEquiv1 rowsTimesW 32 rfl rfl).symm k) = ix2 k q := funext fun a => Fin.ext (by
      match a with
      | ⟨0, _⟩ => exact (rhs_row _ _).trans hk
      | ⟨1, _⟩ => exact rhs_col _ _)
    rw [el, er]
    rfl
  · exact (broadcastTo_1b_ab_apply _ broadcasts_S1x32_S5000x32 p q).trans (shapeCast_a_1a_apply x2 shapeCasts_S32_S1x32 0 q)

/-- The same at any index of the block. -/
theorem pay_at (x0 : Vec Ideal S5000x32 .f32) (x1 : Vec Ideal S32x32 .f32) (x2 : Vec Ideal S32 .f32) (j : S5000x32.Idx) :
    k1_pay1 (F := Ideal) x0 x1 x2 j
      = (∑ k : Fin 32, max (x0 (ix2 (j 0) k)) (Ideal.ofBits .f32 0x00000000#32) * x1 (ix2 k (j 1))) + x2 (ix1 (j 1)) :=
  (congrArg (k1_pay1 (F := Ideal) x0 x1 x2) (eq_ix2 j)).trans (pay_apply x0 x1 x2 (j 0) (j 1))

/-- Entry (p, q) of `max(h, 0) · W + b`: row p of h, its negative entries replaced by zero, against column q of W, plus b at q. -/
def entry (h : S100000x32.Idx → EReal) (w : S32x32.Idx → EReal) (b : S32.Idx → EReal) (p : Fin 100000) (q : Fin 32) : EReal :=
  (∑ k : Fin 32, max (h (ix2 p k)) (Ideal.ofBits .f32 0x00000000#32) * w (ix2 k q)) + b (ix1 q)

/-- The array `max(h, 0) · W + b`, all 100000 rows. -/
def reluDense (h : S100000x32.Idx → EReal) (w : S32x32.Idx → EReal) (b : S32.Idx → EReal) : S100000x32.Idx → EReal :=
  fun i => entry h w b (i 0) (i 1)

theorem zeros2 : (![0, 0] : Fin 2 → Nat) = fun _ => 0 := funext fun a => by fin_cases a <;> rfl
theorem zeros1 : (![0] : Fin 1 → Nat) = fun _ => 0 := funext fun a => by fin_cases a <;> rfl

/-- The index maps over the 20 points: the row-tile windows (0 and 3) sit at tile t, the weight and bias windows at 0. -/
theorem tile_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What point t writes back is tile t of `max(h, 0) · W + b` of the arrays as the region finds them. -/
theorem flushed_eq (c : Dev nD) (t : Fin cfg1.N) :
    (dat1 V c).flushed 3 t = ((cfg1.win 3).blk t).view.read (Elt Ideal) (reluDense (V c main_v13) (V c main_v14) (V c main_v15)) := by
  show (cfg1.win 3).cut (grid1.coords t) ((dat1 V c).after 3 t) = _
  rw [after1_3]
  unfold out1_3
  rw [View.canon_unit_zero zeros2]
  simp only [View.ld_unit_zero (S := S5000x32) zeros2, View.ld_unit_zero (S := S32x32) zeros2, View.ld_unit_zero (S := S32) zeros1]
  obtain ⟨e0, e1, e2, e3, e4, e5, e6⟩ := tile_facts t
  funext j
  show k1_pay1 (iblk1 V c 0 t) (iblk1 V c 1 t) (iblk1 V c 2 t) j
    = reluDense (V c main_v13) (V c main_v14) (V c main_v15) (((cfg1.win 3).blk t).view.emb j)
  refine (pay_at _ _ _ j).trans ?_
  unfold reluDense entry
  have hj0 : (j 0).val < 5000 := (j 0).isLt
  have hj1 : (j 1).val < 32 := (j 1).isLt
  have hrow : ∀ k : Fin 32, iblk1 V c 0 t (ix2 (j 0) k) = V c main_v13 (ix2 ((((cfg1.win 3).blk t).view.emb j) 0) k) := fun k => by
    show V c main_v13 (((cfg1.win 0).blk t).view.emb (ix2 (j 0) k)) = _
    refine congrArg (V c main_v13) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * k.val = k.val; omega
  have hw : ∀ k : Fin 32, iblk1 V c 1 t (ix2 k (j 1)) = V c main_v14 (ix2 k ((((cfg1.win 3).blk t).view.emb j) 1)) := fun k => by
    show V c main_v14 (((cfg1.win 1).blk t).view.emb (ix2 k (j 1))) = _
    refine congrArg (V c main_v14) (funext fun a => Fin.ext ?_)
    match a with
    | ⟨0, _⟩ => show win1_1.index t (0 : Fin 2) * 32 + 1 * k.val = k.val; omega
    | ⟨1, _⟩ => show win1_1.index t (1 : Fin 2) * 32 + 1 * (j 1).val = win1_3.index t (1 : Fin 2) * 32 + 1 * (j 1).val; omega
  have hb : iblk1 V c 2 t (ix1 (j 1)) = V c main_v15 (ix1 ((((cfg1.win 3).blk t).view.emb j) 1)) := by
    show V c main_v15 (((cfg1.win 2).blk t).view.emb (ix1 (j 1))) = _
    refine congrArg (V c main_v15) (funext fun a => Fin.ext ?_)
    match a with
    | ⟨0, _⟩ => show win1_2.index t (0 : Fin 1) * 32 + 1 * (j 1).val = win1_3.index t (1 : Fin 2) * 32 + 1 * (j 1).val; omega
  rw [hb]
  refine congrArg₂ (· + ·) (Finset.sum_congr rfl fun k _ => ?_) rfl
  rw [hrow k, hw k]

/-- An index of the array is in tile t iff each coordinate is in the tile's range on its axis. -/
theorem mem_tile (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v16).slice (win1_3.rect t)).set ↔ _
  rw [View.set_slice_whole, Rect.mem_set_unit]
  exact Iff.rfl

/-- Every row is in a tile that is written back: row r is in tile r / 5000. -/
theorem tiles_cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ : ∃ t : Fin cfg1.N, t.val = (i 0).val / 5000 := ⟨⟨(i 0).val / 5000, by show (i 0).val / 5000 < 20; omega⟩, rfl⟩
  obtain ⟨-, -, -, -, -, e5, e6⟩ := tile_facts t
  refine ⟨t, flush1_3 t, ?_⟩
  rw [mem_tile]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- The region's output array after its 20 points is `max(h, 0) · W + b` of the arrays it was entered with. -/
theorem final1 (c : Dev nD) :
    (dat1 V c).arrAt 3 cfg1.N = reluDense (V c main_v13) (V c main_v14) (V c main_v15) :=
  (dat1 V c).arrAt_eq_of_cover 3 _ (fun t _ => flushed_eq V c t) tiles_cover

end

/-- The contraction record of the reference's product, named shortly. -/
abbrev rowsTimesW16 := Cert.ReferenceIdeal.dot_S100000x32_S32x16_S100000x16_1_0_0_1_n_n

open Cert.ReferenceIdeal.Read in
/-- The host's product of a 100000 × 32 array with a 32 × 16 matrix, at an entry: the row against the column. -/
theorem rows_dot_apply (y : (⟨S100000x32, .f32⟩ : BufTy).Contents (Elt Ideal)) (w : (⟨S32x16, .f32⟩ : BufTy).Contents (Elt Ideal))
    (i : S100000x16.Idx) :
    Host.dotGeneral (F := Ideal) (φ₁ := .f32) (φ₂ := .f32) rowsTimesW16 none y w i = ∑ k : Fin 32, y (ix2 (i 0) k) * w (ix2 k (i 1)) := by
  simp only [Host.dotGeneral]
  rw [Ideal.dotGeneral_apply, ← Equiv.sum_comp (contrEquiv1 rowsTimesW16 32 rfl rfl).symm]
  refine Finset.sum_congr rfl fun k _ => ?_
  have hk := contrEquiv1_symm_val rowsTimesW16 32 rfl rfl k
  have el : rowsTimesW16.lhsIdx i ((contrEquiv1 rowsTimesW16 32 rfl rfl).symm k) = ix2 (i 0) k := funext fun a => Fin.ext (by
    match a with
    | ⟨0, _⟩ => exact lhs_main_v18_0 _ _
    | ⟨1, _⟩ => exact (lhs_main_v18_1 _ _).trans hk)
  have er : rowsTimesW16.rhsIdx i ((contrEquiv1 rowsTimesW16 32 rfl rfl).symm k) = ix2 k (i 1) := funext fun a => Fin.ext (by
    match a with
    | ⟨0, _⟩ => exact (rhs_main_v18_0 _ _).trans hk
    | ⟨1, _⟩ => exact rhs_main_v18_1 _ _)
  rw [el, er]
  rfl

open Cert.ReferenceIdeal.Read in
/-- The reference's dense step on `max(h, 0)`, at an entry. -/
theorem dense16_relu32_apply (h : (⟨S100000x32, .f32⟩ : BufTy).Contents (Elt Ideal)) (w : (⟨S32x16, .f32⟩ : BufTy).Contents (Elt Ideal))
    (b : (⟨S16, .f32⟩ : BufTy).Contents (Elt Ideal)) (i : S100000x16.Idx) :
    Cert.Gcn.dense16 (F := Ideal) (Cert.Gcn.relu32 (F := Ideal) h) w b i
      = (∑ k : Fin 32, max (h (ix2 (i 0) k)) (Ideal.ofBits .f32 0x00000000#32) * w (ix2 k (i 1))) + b (ix1 (i 1)) := by
  unfold Cert.Gcn.dense16
  rw [addf_apply]
  refine congrArg₂ (· + ·) ((rows_dot_apply _ w i).trans (Finset.sum_congr rfl fun k _ => ?_)) ?_
  · unfold Cert.Gcn.relu32
    rw [maximumf_apply, val_main_call0_v0_apply, val_main_call0_cst_apply]
    rfl
  · rw [val_main_v20_apply, val_main_v19_apply]
    exact congrArg b (funext fun a => Fin.ext (by match a with | ⟨0, _⟩ => rfl))

/-- Columns 0–15 of the second layer's array after its region are `max h 0 · Wmu + bmu` when the region's weight
    and bias arrays are the concatenations `[Wmu | Wls]` and `[bmu | bls]`. -/
theorem final1_mu (V : (c : Dev nD) → (b : Ref sig .tc) → Buf (Elt Ideal) ((c : Thread nD τ).loc b)) (c : Dev nD)
    (wmu wls : (⟨S32x16, .f32⟩ : BufTy).Contents (Elt Ideal)) (bmu bls : (⟨S16, .f32⟩ : BufTy).Contents (Elt Ideal))
    (hw : V c main_v14 = concatenate S32x32 1 [⟨S32x16, wmu⟩, ⟨S32x16, wls⟩] concatenates_S32x16_S32x16_S32x32_d1)
    (hb : V c main_v15 = concatenate S32 0 [⟨S16, bmu⟩, ⟨S16, bls⟩] concatenates_S16_S16_S32_d0) :
    extractStridedSlice S100000x16 ![0, 0] ((dat1 V c).arrAt 3 cfg1.N) slices_S100000x32_S100000x16_0_0
      = Cert.Gcn.dense16 (F := Ideal) (Cert.Gcn.relu32 (F := Ideal) (V c main_v13)) wmu bmu := by
  rw [final1 V c, hw, hb]
  funext i
  have hi0 : (i 0).val < 100000 := (i 0).isLt
  have hi1 : (i 1).val < 16 := (i 1).isLt
  refine (extractStridedSlice_apply ![0, 0] _ slices_S100000x32_S100000x16_0_0 i
    (ix2 (⟨(i 0).val, hi0⟩ : Fin 100000) (⟨(i 1).val, by omega⟩ : Fin 32)) (fun a => ?_)).trans ?_
  · match a with
    | ⟨0, _⟩ => show (i 0).val = 0 + (i 0).val; omega
    | ⟨1, _⟩ => show (i 1).val = 0 + (i 1).val; omega
  refine Eq.trans ?_ (dense16_relu32_apply (V c main_v13) wmu bmu i).symm
  unfold reluDense entry
  refine congrArg₂ (· + ·) (Finset.sum_congr rfl fun k _ => congrArg₂ (· * ·) rfl ?_) ?_
  · exact concatenate_pair_apply_left (t := S32x32) (s₁ := S32x16) (s₂ := S32x16) (1 : Fin 2) wmu wls concatenates_S32x16_S32x16_S32x32_d1 _ rfl (ix2 k (i 1))
      (fun b => by match b with | ⟨0, _⟩ => rfl | ⟨1, _⟩ => rfl)
  · exact concatenate_pair_apply_left (t := S32) (s₁ := S16) (s₂ := S16) (0 : Fin 1) bmu bls concatenates_S16_S16_S32_d0 _ rfl (ix1 (i 1))
      (fun b => by match b with | ⟨0, _⟩ => rfl)

/-- Columns 16–31 are `max h 0 · Wls + bls`. -/
theorem final1_ls (V : (c : Dev nD) → (b : Ref sig .tc) → Buf (Elt Ideal) ((c : Thread nD τ).loc b)) (c : Dev nD)
    (wmu wls : (⟨S32x16, .f32⟩ : BufTy).Contents (Elt Ideal)) (bmu bls : (⟨S16, .f32⟩ : BufTy).Contents (Elt Ideal))
    (hw : V c main_v14 = concatenate S32x32 1 [⟨S32x16, wmu⟩, ⟨S32x16, wls⟩] concatenates_S32x16_S32x16_S32x32_d1)
    (hb : V c main_v15 = concatenate S32 0 [⟨S16, bmu⟩, ⟨S16, bls⟩] concatenates_S16_S16_S32_d0) :
    extractStridedSlice S100000x16 ![0, 16] ((dat1 V c).arrAt 3 cfg1.N) slices_S100000x32_S100000x16_0_16
      = Cert.Gcn.dense16 (F := Ideal) (Cert.Gcn.relu32 (F := Ideal) (V c main_v13)) wls bls := by
  rw [final1 V c, hw, hb]
  funext i
  have hi0 : (i 0).val < 100000 := (i 0).isLt
  have hi1 : (i 1).val < 16 := (i 1).isLt
  refine (extractStridedSlice_apply ![0, 16] _ slices_S100000x32_S100000x16_0_16 i
    (ix2 (⟨(i 0).val, hi0⟩ : Fin 100000) (⟨(i 1).val + 16, by omega⟩ : Fin 32)) (fun a => ?_)).trans ?_
  · match a with
    | ⟨0, _⟩ => show (i 0).val = 0 + (i 0).val; omega
    | ⟨1, _⟩ => show (i 1).val + 16 = 16 + (i 1).val; omega
  refine Eq.trans ?_ (dense16_relu32_apply (V c main_v13) wls bls i).symm
  unfold reluDense entry
  refine congrArg₂ (· + ·) (Finset.sum_congr rfl fun k _ => congrArg₂ (· * ·) rfl ?_) ?_
  · exact concatenate_pair_apply_right (t := S32x32) (s₁ := S32x16) (s₂ := S32x16) (1 : Fin 2) wmu wls concatenates_S32x16_S32x16_S32x32_d1 _ rfl rfl (ix2 k (i 1))
      (fun b hne => by
        match b with
        | ⟨0, _⟩ => rfl
        | ⟨1, _⟩ => exact absurd rfl hne)
      (by rfl)
  · exact concatenate_pair_apply_right (t := S32) (s₁ := S16) (s₂ := S16) (0 : Fin 1) bmu bls concatenates_S16_S16_S32_d0 _ rfl rfl (ix1 (i 1))
      (fun b hne => by
        match b with
        | ⟨0, _⟩ => exact absurd rfl hne)
      (by rfl)

end Cert.Gcn.Region1

end
-- ==== Proof.Region2.lean ====
/-
  The reparameterization's region.  Each of its twenty row tiles reads rows 5000 t … 5000 t + 4999 of `mu`, `logstd`
  and `eps` and writes the same rows of `mu + eps · exp logstd`; the tiles cover the array, so after the region the
  output array is that expression of the three input arrays as the region found them, entry by entry.
-/
import proofs.«134589_j44633300140358_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.Gcn.Region2

open Cert.KernelIdeal Cert.KernelIdeal.Gen

variable {F : FTy → Type} [FloatOps F]

theorem zero_offsets : (![0, 0] : Fin 2 → Nat) = fun _ => 0 := funext fun a => by fin_cases a <;> rfl

/-- The body's stored value: `mu + eps · exp logstd` of the three loaded tiles. -/
theorem stored_eq (x0 x2 x3 : Vec F S5000x16 .f32) : k2_pay1 x0 x2 x3 = addf x0 (mulf x2 (exp x3)) := by
  unfold k2_pay1
  simp only [shapeCast_self]

/-- The four windows move together: at point `t` each has block index `(t, 0)`. -/
theorem blocks_aligned : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = win2_3.index t (1 : Fin 2)
    ∧ win2_2.index t (0 : Fin 2) = win2_3.index t (0 : Fin 2)
    ∧ win2_2.index t (1 : Fin 2) = win2_3.index t (1 : Fin 2) :=
  (by decide +kernel : ∀ t : Fin grid2.N, _)

/-- Every row tile is some point's. -/
theorem tile_onto : ∀ (q0 : Fin 20) (q1 : Fin 1), ∃ t : Fin cfg2.N, win2_3.index t = ![q0.val, q1.val] :=
  (by decide +kernel : ∀ (q0 : Fin 20) (q1 : Fin 1), ∃ t : Fin grid2.N, win2_3.index t = ![q0.val, q1.val])

/-- What point `t` writes back is tile `t` of `mu + eps · exp logstd`. -/
theorem flushed_eq (V : (c : Dev nD) → (b : Ref sig .tc) → Buf (Elt F) ((c : Thread nD τ).loc b)) (c : Dev nD) (t : Fin cfg2.N) :
    (dat2 V c).flushed 3 t
      = ((cfg2.win 3).blk t).view.read (Elt F) (addf (V c main_v31) (mulf (V c main_arg7) (exp (V c main_v44)))) := by
  show (cfg2.win 3).cut (grid2.coords t) ((dat2 V c).after 3 t) = _
  rw [after2_3]
  unfold out2_3
  rw [View.canon_unit_zero zero_offsets]
  simp only [View.ld_unit_zero (S := S5000x16) zero_offsets]
  rw [stored_eq]
  obtain ⟨e0, e1, e2, e3, e4, e5⟩ := blocks_aligned t
  funext j
  show FloatOps.addf (V c main_v31 (((cfg2.win 0).blk t).view.emb j))
      (FloatOps.mulf (V c main_arg7 (((cfg2.win 2).blk t).view.emb j)) (FloatOps.exp (V c main_v44 (((cfg2.win 1).blk t).view.emb j))))
    = FloatOps.addf (V c main_v31 (((cfg2.win 3).blk t).view.emb j))
      (FloatOps.mulf (V c main_arg7 (((cfg2.win 3).blk t).view.emb j)) (FloatOps.exp (V c main_v44 (((cfg2.win 3).blk t).view.emb j))))
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 16 + 1 * (j 1).val = win2_3.index t (1 : Fin 2) * 16 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 16 + 1 * (j 1).val = win2_3.index t (1 : Fin 2) * 16 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 16 + 1 * (j 1).val = win2_3.index t (1 : Fin 2) * 16 + 1 * (j 1).val; omega
  rw [h0, h1, h2]

/-- An index of the array is in point `t`'s tile iff each coordinate is in the tile's range on its axis. -/
theorem mem_tile (t : Fin cfg2.N) (i : S100000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v45).slice (win2_3.rect t)).set ↔ _
  rw [View.set_slice_whole, Rect.mem_set_unit]
  exact Iff.rfl

/-- Row `r` lies in tile `r / 5000`. -/
theorem covered (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ := tile_onto ⟨(i 0).val / 5000, by omega⟩ ⟨0, by omega⟩
  have q0 : win2_3.index t (0 : Fin 2) = (i 0).val / 5000 := congrFun ht 0
  have q1 : win2_3.index t (1 : Fin 2) = 0 := congrFun ht 1
  refine ⟨t, flush2_3 t, ?_⟩
  rw [mem_tile]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 16 ≤ (i 1).val ∧ (i 1).val < win2_3.index t (1 : Fin 2) * 16 + 16; omega

/-- The output array after the region. -/
theorem final2 (V : (c : Dev nD) → (b : Ref sig .tc) → Buf (Elt F) ((c : Thread nD τ).loc b)) (c : Dev nD) :
    (dat2 V c).arrAt 3 cfg2.N = addf (V c main_v31) (mulf (V c main_arg7) (exp (V c main_v44))) :=
  (dat2 V c).arrAt_eq_of_cover 3 _ (fun t _ => flushed_eq V c t) covered

end Cert.Gcn.Region2

end
-- ==== Proof.KernelValue.lean ====
/-
  The idealized kernel's three results as functions of its arguments.  Walking @main's boundaries from the launch:
  after the first region the first layer's array is `x · W1 + b1`; the first host stretch turns it into
  `A ⋆ (x · W1 + b1)` and lays `[Wmu | Wls]`, `[bmu | bls]` side by side; after the second region columns 0–15 and
  16–31 of its array are `h · Wmu + bmu` and `h · Wls + bls` with `h = max (A ⋆ (x · W1 + b1)) 0`; the second host
  stretch propagates each, giving `mu` and `logstd`; the last region writes `mu + eps · exp logstd`.  Each of these
  is the reference's stage of the same name, so the last boundary holds the reference's three results.
-/
import proofs.«134589_j44633300140358_2_alg».proof.Proof.Gen.KernelIdeal.Frame
import proofs.«134589_j44633300140358_2_alg».proof.Proof.Spec
import proofs.«134589_j44633300140358_2_alg».proof.Proof.HostWalk
import proofs.«134589_j44633300140358_2_alg».proof.Proof.Region0
import proofs.«134589_j44633300140358_2_alg».proof.Proof.Region1
import proofs.«134589_j44633300140358_2_alg».proof.Proof.Region2

noncomputable section

open Idealize.ShloMosaic Idealize.ShloMosaic.TcCoe Idealize.SL.Sem Idealize.ShloMosaic.StableHlo

namespace Cert.Gcn.Value

open Cert.KernelIdeal Cert.KernelIdeal.Gen
open Cert.ReferenceIdeal.Read (val_main_v3 val_main_v34 val_main_v51 val_main_v54)

variable (m : (ℓ : Loc nD τ sig) → Buf (Elt Ideal) ℓ) (ρ : Dev nD → PrngReg) (c : Dev nD)

/-! ## After the first region -/

theorem b1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem b1_arg1 : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem b1_arg2 : W1 m ρ c (Proc.devRef .tc main_arg2) = m ((c : Thread nD τ).loc main_arg2) :=
  (W1_arr m ρ c 2).trans (((dat0 (V0 m ρ) c).arrAt_in 2 rfl _).trans (A_eq0 (V0 m ρ) c 2))
theorem b1_arg3 : W1 m ρ c (Proc.devRef .tc main_arg3) = m ((c : Thread nD τ).loc main_arg3) :=
  W1_of_ne m ρ c main_arg3 (by decide)
theorem b1_arg4 : W1 m ρ c (Proc.devRef .tc main_arg4) = m ((c : Thread nD τ).loc main_arg4) :=
  W1_of_ne m ρ c main_arg4 (by decide)
theorem b1_arg5 : W1 m ρ c (Proc.devRef .tc main_arg5) = m ((c : Thread nD τ).loc main_arg5) :=
  W1_of_ne m ρ c main_arg5 (by decide)
theorem b1_arg6 : W1 m ρ c (Proc.devRef .tc main_arg6) = m ((c : Thread nD τ).loc main_arg6) :=
  W1_of_ne m ρ c main_arg6 (by decide)
theorem b1_arg7 : W1 m ρ c (Proc.devRef .tc main_arg7) = m ((c : Thread nD τ).loc main_arg7) :=
  W1_of_ne m ρ c main_arg7 (by decide)
theorem b1_arg8 : W1 m ρ c (Proc.devRef .tc main_arg8) = m ((c : Thread nD τ).loc main_arg8) :=
  W1_of_ne m ρ c main_arg8 (by decide)
theorem b1_arg9 : W1 m ρ c (Proc.devRef .tc main_arg9) = m ((c : Thread nD τ).loc main_arg9) :=
  W1_of_ne m ρ c main_arg9 (by decide)
theorem b1_arg10 : W1 m ρ c (Proc.devRef .tc main_arg10) = m ((c : Thread nD τ).loc main_arg10) :=
  W1_of_ne m ρ c main_arg10 (by decide)

/-- The first layer's array is `x · W1 + b1`. -/
theorem b1_out : W1 m ρ c (Proc.devRef .tc main_v0) = val_main_v3 (F := Ideal) (m ((c : Thread nD τ).loc main_arg0)) (m ((c : Thread nD τ).loc main_arg1)) (m ((c : Thread nD τ).loc main_arg2)) :=
  (W1_arr m ρ c 3).trans (Region0.final0 (V0 m ρ) c)

/-! ## After the first host stretch -/

theorem b2_h : W2 m ρ c (Proc.devRef .tc main_v13)
    = Cert.Gcn.prop32 (F := Ideal) (m ((c : Thread nD τ).loc main_arg8)) (m ((c : Thread nD τ).loc main_arg9)) (m ((c : Thread nD τ).loc main_arg10)) (val_main_v3 (F := Ideal) (m ((c : Thread nD τ).loc main_arg0)) (m ((c : Thread nD τ).loc main_arg1)) (m ((c : Thread nD τ).loc main_arg2))) :=
  (Host.stretch1_h (W1 m ρ c)).trans (by rw [b1_arg8 m ρ c, b1_arg9 m ρ c, b1_arg10 m ρ c, b1_out m ρ c])

theorem b2_w : W2 m ρ c (Proc.devRef .tc main_v14)
    = concatenate S32x32 1 [⟨S32x16, (m ((c : Thread nD τ).loc main_arg3))⟩, ⟨S32x16, (m ((c : Thread nD τ).loc main_arg5))⟩] concatenates_S32x16_S32x16_S32x32_d1 :=
  (Host.stretch1_w (W1 m ρ c)).trans (by rw [b1_arg3 m ρ c, b1_arg5 m ρ c])

theorem b2_b : W2 m ρ c (Proc.devRef .tc main_v15)
    = concatenate S32 0 [⟨S16, (m ((c : Thread nD τ).loc main_arg4))⟩, ⟨S16, (m ((c : Thread nD τ).loc main_arg6))⟩] concatenates_S16_S16_S32_d0 :=
  (Host.stretch1_b (W1 m ρ c)).trans (by rw [b1_arg4 m ρ c, b1_arg6 m ρ c])

theorem b2_arg7 : W2 m ρ c (Proc.devRef .tc main_arg7) = m ((c : Thread nD τ).loc main_arg7) :=
  (Host.stretch1_arg7 (W1 m ρ c)).trans (b1_arg7 m ρ c)
theorem b2_arg8 : W2 m ρ c (Proc.devRef .tc main_arg8) = m ((c : Thread nD τ).loc main_arg8) :=
  (Host.stretch1_arg8 (W1 m ρ c)).trans (b1_arg8 m ρ c)
theorem b2_arg9 : W2 m ρ c (Proc.devRef .tc main_arg9) = m ((c : Thread nD τ).loc main_arg9) :=
  (Host.stretch1_arg9 (W1 m ρ c)).trans (b1_arg9 m ρ c)
theorem b2_arg10 : W2 m ρ c (Proc.devRef .tc main_arg10) = m ((c : Thread nD τ).loc main_arg10) :=
  (Host.stretch1_arg10 (W1 m ρ c)).trans (b1_arg10 m ρ c)

/-! ## After the second region -/

theorem b3_arg7 : W3 m ρ c (Proc.devRef .tc main_arg7) = m ((c : Thread nD τ).loc main_arg7) :=
  (W3_of_ne m ρ c main_arg7 (by decide)).trans (b2_arg7 m ρ c)
theorem b3_arg8 : W3 m ρ c (Proc.devRef .tc main_arg8) = m ((c : Thread nD τ).loc main_arg8) :=
  (W3_of_ne m ρ c main_arg8 (by decide)).trans (b2_arg8 m ρ c)
theorem b3_arg9 : W3 m ρ c (Proc.devRef .tc main_arg9) = m ((c : Thread nD τ).loc main_arg9) :=
  (W3_of_ne m ρ c main_arg9 (by decide)).trans (b2_arg9 m ρ c)
theorem b3_arg10 : W3 m ρ c (Proc.devRef .tc main_arg10) = m ((c : Thread nD τ).loc main_arg10) :=
  (W3_of_ne m ρ c main_arg10 (by decide)).trans (b2_arg10 m ρ c)

theorem b3_out : W3 m ρ c (Proc.devRef .tc main_v16) = (dat1 (V2 m ρ) c).arrAt 3 cfg1.N := W3_arr m ρ c 3

/-! ## After the second host stretch -/

/-- `mu` is the reference's. -/
theorem b4_mu : W4 m ρ c (Proc.devRef .tc main_v31)
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) := by
  refine (Host.stretch2_mu (W3 m ρ c)).trans ?_
  rw [b3_arg8 m ρ c, b3_arg9 m ρ c, b3_arg10 m ρ c, b3_out m ρ c,
    Region1.final1_mu (V2 m ρ) c _ _ _ _ (b2_w m ρ c) (b2_b m ρ c), Cert.Gcn.ref_mu]
  unfold Cert.Gcn.hidden
  rw [show V2 m ρ c main_v13 = _ from b2_h m ρ c]

/-- `logstd` is the reference's. -/
theorem b4_ls : W4 m ρ c (Proc.devRef .tc main_v44)
    = val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) (m ((c : Thread nD τ).loc main_arg10)) := by
  refine (Host.stretch2_ls (W3 m ρ c)).trans ?_
  rw [b3_arg8 m ρ c, b3_arg9 m ρ c, b3_arg10 m ρ c, b3_out m ρ c,
    Region1.final1_ls (V2 m ρ) c _ _ _ _ (b2_w m ρ c) (b2_b m ρ c), Cert.Gcn.ref_ls]
  unfold Cert.Gcn.hidden
  rw [show V2 m ρ c main_v13 = _ from b2_h m ρ c]

theorem b4_eps : W4 m ρ c (Proc.devRef .tc main_arg7) = m ((c : Thread nD τ).loc main_arg7) :=
  (Host.stretch2_arg7 (W3 m ρ c)).trans (b3_arg7 m ρ c)

/-! ## After the last region -/

theorem b5_mu : W5 m ρ c (Proc.devRef .tc main_v31)
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) :=
  (W5_arr m ρ c 0).trans (((dat2 (V4 m ρ) c).arrAt_in 0 rfl _).trans ((A_eq2 (V4 m ρ) c 0).trans (b4_mu m ρ c)))

theorem b5_ls : W5 m ρ c (Proc.devRef .tc main_v44)
    = val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) (m ((c : Thread nD τ).loc main_arg10)) :=
  (W5_arr m ρ c 1).trans (((dat2 (V4 m ρ) c).arrAt_in 1 rfl _).trans ((A_eq2 (V4 m ρ) c 1).trans (b4_ls m ρ c)))

/-- On the extended reals the host's exponential and the kernel's are one function. -/
theorem exp_host (v : FVec Ideal Cert.ReferenceIdeal.S100000x16 .f32) : exp v = Host.exp v := rfl

/-- `z` is the reference's. -/
theorem b5_z : W5 m ρ c (Proc.devRef .tc main_v45)
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W5_arr m ρ c 3).trans ((Region2.final2 (V4 m ρ) c).trans ?_)
  rw [Cert.Gcn.ref_z, show V4 m ρ c main_v31 = _ from b4_mu m ρ c, show V4 m ρ c main_v44 = _ from b4_ls m ρ c,
    show V4 m ρ c main_arg7 = _ from b4_eps m ρ c]
  exact congrArg (fun e => addf _ (mulf _ e)) (exp_host _)

end Cert.Gcn.Value

end
-- ==== Proof.lean ====
/-
  A two-layer graph convolution with a reparameterized output, as three tiled dense kernels with host-side sparse
  propagation between them, against the plain array program.  Both compute, on the extended reals,

      h      = max (A ⋆ (x · W1 + b1)) 0
      mu     = A ⋆ (h · Wmu + bmu)
      logstd = A ⋆ (h · Wls + bls)
      z      = mu + eps · exp logstd

  where `A ⋆ s` gathers row `col e` of `s` for every edge `e`, scales it by `val e` and adds it into row `row e`.
  The kernel computes the two heads with ONE product against `[Wmu | Wls]` and cuts the result in two; a column of
  that product is a column of one head's product, sum by sum, so no law of arithmetic beyond reading indices joins the
  two programs and the inputs' finiteness is never used.  The propagation `A ⋆ ·` is the same chain of host
  operations on both sides and is carried as one function of the dense array that reaches it.

  The three frames: the kernels' are the generated frame certificates; the reference's is its generated run with the
  results dropped.  The ideal pass rewrote nothing, so `preserves` is `True`.
-/
import proofs.«134589_j44633300140358_2_alg».proof.Defs
import proofs.«134589_j44633300140358_2_alg».proof.Proof.Gen.Kernel
import proofs.«134589_j44633300140358_2_alg».proof.Proof.Gen.Kernel.Frame
import proofs.«134589_j44633300140358_2_alg».proof.Proof.Gen.KernelIdeal
import proofs.«134589_j44633300140358_2_alg».proof.Proof.Gen.KernelIdeal.Frame
import proofs.«134589_j44633300140358_2_alg».proof.Proof.Gen.ReferenceIdeal
import proofs.«134589_j44633300140358_2_alg».proof.Proof.Gen.ReferenceIdeal.Read
import proofs.«134589_j44633300140358_2_alg».proof.Proof.Gen.Pre_finite_inputs
import proofs.«134589_j44633300140358_2_alg».proof.Proof.KernelRun
import proofs.«134589_j44633300140358_2_alg».proof.Proof.KernelValue
import Idealize.ShloMosaic.Adequacy
import Idealize.ShloMosaic.Init

noncomputable section

namespace Cert.Proof

open Idealize.ShloMosaic Idealize.SL.Sem
open Cert.ReferenceIdeal.Read (val_main_v34 val_main_v51 val_main_v54 val_main_v34_eq val_main_v51_eq val_main_v54_eq)

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2) (Cert.ReferenceIdeal.Value.run (F := Ideal) m ρ)

/-- Both programs end with `z`, `mu`, `logstd` at the reference's stages of the shared arguments. -/
theorem algebraic : Cert.algebraic_KernelIdeal_ReferenceIdeal := by
  intro m ρ m' ρ' _ hagree
  refine ⟨fun c => val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Run.run_named (F := Ideal) m ρ)
    obtain ⟨hz, hmu, hls, hargs⟩ := h c
    exact ⟨hz.trans (Cert.Gcn.Value.b5_z m ρ c), hmu.trans (Cert.Gcn.Value.b5_mu m ρ c), hls.trans (Cert.Gcn.Value.b5_ls m ρ c), hargs⟩
  · refine (θ_run Cert.ReferenceIdeal.defs _ _).mono (fun r h c => ?_) (Cert.ReferenceIdeal.Value.run (F := Ideal) m' ρ')
    obtain ⟨hz, hmu, hls, hargs⟩ := h c
    obtain ⟨e0, e1, e2, e3, e4, e5, e6, e7, e8, e9, e10⟩ := hagree c
    refine ⟨?_, ?_, ?_, hargs⟩
    · refine (hz.trans (val_main_v54_eq m' c)).trans ?_
      rw [e0, e1, e2, e3, e4, e5, e6, e7, e8, e9, e10]
    · refine (hmu.trans (val_main_v34_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))).trans ?_
      rw [e0, e1, e2, e3, e4, e8, e9, e10]
    · refine (hls.trans (val_main_v51_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))).trans ?_
      rw [e0, e1, e2, e5, e6, e8, e9, e10]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
